-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x128 .f32) (main_arg7 : FVec F S64x128 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S800000 32) (main_arg2 : IVec S800000 32) (main_arg3 : FVec F S128x128 .f32) (main_arg4 : FVec F S128x128 .f32) (main_arg5 : FVec F S128 .f32) (main_arg6 : FVec F S64x128 .f32) (main_arg7 : FVec F S64x128 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S100000 : Shape := ⟨1, ![100000]⟩
abbrev S800000x1 : Shape := ⟨2, ![800000, 1]⟩
abbrev S800000x128 : Shape := ⟨2, ![800000, 128]⟩
abbrev S1x128 : Shape := ⟨2, ![1, 128]⟩
abbrev S100000x1 : Shape := ⟨2, ![100000, 1]⟩
abbrev S5000x128 : Shape := ⟨2, ![5000, 128]⟩
abbrev S5000x1 : Shape := ⟨2, ![5000, 1]⟩
abbrev S128x64 : Shape := ⟨2, ![128, 64]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 58
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S64x128, .f32⟩
  | .hbm, ⟨8, _⟩ => ⟨S64, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S100000, .f32⟩
  | .hbm, ⟨13, _⟩ => ⟨S800000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x128, .bf16⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .bf16⟩
  | .hbm, ⟨28, _⟩ => ⟨S800000x128, .f32⟩
  | .hbm, ⟨29, _⟩ => ⟨S_, .f32⟩
  | .hbm, ⟨30, _⟩ => ⟨S100000x128, .f32⟩
  | .hbm, ⟨31, _⟩ => ⟨S800000x1, .i32⟩
  | .hbm, ⟨32, _⟩ => ⟨S100000x128, .f32⟩
  | .hbm, ⟨33, _⟩ => ⟨S128x128, .f32⟩
  | .hbm, ⟨34, _⟩ => ⟨S128x128, .f32⟩
  | .hbm, ⟨35, _⟩ => ⟨S1x128, .f32⟩
  | .hbm, ⟨36, _⟩ => ⟨S100000x1, .f32⟩
  | .hbm, ⟨37, _⟩ => ⟨S100000x128, .f32⟩
  | .hbm, ⟨38, _⟩ => ⟨S100000x128, .bf16⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .bf16⟩
  | .hbm, ⟨48, _⟩ => ⟨S800000x128, .f32⟩
  | .hbm, ⟨49, _⟩ => ⟨S_, .f32⟩
  | .hbm, ⟨50, _⟩ => ⟨S100000x128, .f32⟩
  | .hbm, ⟨51, _⟩ => ⟨S800000x1, .i32⟩
  | .hbm, ⟨52, _⟩ => ⟨S100000x128, .f32⟩
  | .hbm, ⟨53, _⟩ => ⟨S128x64, .f32⟩
  | .hbm, ⟨54, _⟩ => ⟨S128x64, .f32⟩
  | .hbm, ⟨55, _⟩ => ⟨S1x64, .f32⟩
  | .hbm, ⟨56, _⟩ => ⟨S100000x1, .f32⟩
  | .hbm, ⟨57, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x64, .f32⟩
  | .local _ .vmem, ⟨18, _⟩ => ⟨S128x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bitsLt_bf16_f32 : FTy.bits .bf16 < FTy.bits .f32
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S800000 : Shape := ⟨1, ![800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 78
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S64x128, .f32⟩
  | .hbm, ⟨7, _⟩ => ⟨S64x128, .f32⟩
  | .hbm, ⟨8, _⟩ => ⟨S64, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S_, .f32⟩
  | .hbm, ⟨19, _⟩ => ⟨S100000x128, .f32⟩
  | .hbm, ⟨20, _⟩ => ⟨S800000x1, .i32⟩
  | .hbm, ⟨21, _⟩ => ⟨S100000x128, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S100000, .f32⟩
  | .hbm, ⟨26, _⟩ => ⟨S800000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S128x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .f32⟩
  | .hbm, ⟨54, _⟩ => ⟨S_, .f32⟩
  | .hbm, ⟨55, _⟩ => ⟨S100000x128, .f32⟩
  | .hbm, ⟨56, _⟩ => ⟨S800000x1, .i32⟩
  | .hbm, ⟨57, _⟩ => ⟨S100000x128, .f32⟩
  | .hbm, ⟨58, _⟩ => ⟨S_, .f32⟩
  | .hbm, ⟨59, _⟩ => ⟨S800000, .f32⟩
  | .hbm, ⟨60, _⟩ => ⟨S_, .f32⟩
  | .hbm, ⟨61, _⟩ => ⟨S100000, .f32⟩
  | .hbm, ⟨62, _⟩ => ⟨S800000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S128x64, .f32⟩
  | .hbm, ⟨71, _⟩ => ⟨S100000x64, .f32⟩
  | .hbm, ⟨72, _⟩ => ⟨S128x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call0_cst : Ref sig .tc := ⟨.hbm, 42, rfl⟩
abbrev main_call0_v0 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel program's run with its result named: every weakly fair execution terminates without a fault,
  the nine argument arrays end as launched, and the result array ends at the contents the second pallas_call's
  write-backs leave (the last boundary of the program's fold of buffer contents, read at the result buffer).
-/
import proofs.«109266_j25598005084435_2_alg».proof.Proof.Gen.KernelIdeal.Frame

set_option maxRecDepth 16384

noncomputable section

namespace Cert.Sage.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's four segments (host stretch, call, host stretch, call), the final state read at every
    unscoped buffer: the result buffer at the last boundary's contents, each argument walked back to the launch. -/
theorem run_named : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.Sage.KRun

end
-- ==== Proof.Spec.lean ====
/-
  Two SAGEConv layers with mean aggregation, as mathematics on the extended reals.

  One output element of a layer at node `i` and output feature `j` is
      Σₖ h[i,k]·Wself[j,k]  +  Σₖ (agg[i,k] / deg[i])·Wneigh[j,k]  +  b[j],
  where `agg` is the sum of the source rows `h[src e]` over the edges `e` with `dst e = i` and `deg[i]` is
  the number of such edges, at least one. `cell` is that element from the node's two feature rows, its degree, the
  two weight rows of the output feature and its bias. The first layer is followed by a maximum with zero.
  The gather of source rows and the scatter-sum over destinations are the same host operations in both programs,
  so they are carried as they are (`agg`, `deg`) and never opened.
-/
import proofs.«109266_j25598005084435_2_alg».proof.Proof.Gen.ReferenceIdeal
import Idealize.ShloMosaic.Lib.ValueIdx
import Idealize.ShloMosaic.PureOps.Ideal.Laws

noncomputable section

open scoped BigOperators

namespace Cert.Sage

open Cert.ReferenceIdeal Cert.ReferenceIdeal.Gen Idealize.ShloMosaic Idealize.ShloMosaic.ValueIdx

/-- One element of a layer's output: self term plus mean-neighbour term plus bias. -/
def cell {K : ℕ} (h a : Fin K → EReal) (d : EReal) (ws wn : Fin K → EReal) (b : EReal) : EReal :=
  (∑ k, h k * ws k) + (∑ k, Ideal.div (a k) d * wn k) + b

/-- The edge sources with a negative index wrapped once (jnp's indexing), as a column of start indices. -/
def srcIdx (e1 : IVec S800000 32) : IVec S800000x1 32 :=
  broadcastInDim S800000x1 ![0] bcast_S800000_S800000x1_0
    (select (cmpi .slt e1 (broadcastInDim S800000 ![] bcast_S_S800000 (constantI S_ 32 0#32)))
      (addi e1 (broadcastInDim S800000 ![] bcast_S_S800000 (constantI S_ 32 100000#32))) e1)

/-- Row `i` is the sum of the rows `h[src e]` over the edges `e` whose destination is `i`. -/
def agg (h : FVec Ideal S100000x128 .f32) (e1 e2 : IVec S800000 32) : FVec Ideal S100000x128 .f32 :=
  Host.scatterAdd scatter_S100000x128_S800000x1_S800000x128_1_0_0_1
    (broadcastInDim S100000x128 ![] bcast_S_S100000x128 (constant S_ .f32 0x00000000#32))
    (broadcastInDim S800000x1 ![0] bcast_S800000_S800000x1_0 e2)
    (Host.gather gather_S100000x128_S800000x1_S800000x128_1_0_n_n_0_1_1128 h (srcIdx e1))

/-- The in-degree of every node, at least one. -/
def deg (e2 : IVec S800000 32) : FVec Ideal S100000 .f32 :=
  maximumf
    (Host.scatterAdd scatter_S100000_S800000x1_S800000_n_0_0_1
      (broadcastInDim S100000 ![] bcast_S_S100000 (constant S_ .f32 0x00000000#32))
      (broadcastInDim S800000x1 ![0] bcast_S800000_S800000x1_0 e2)
      (broadcastInDim S800000 ![] bcast_S_S800000 (constant S_ .f32 0x3F800000#32)))
    (broadcastInDim S100000 ![] bcast_S_S100000 (constant S_ .f32 0x3F800000#32))

/-- The hidden layer: 128 features, clipped below at zero. -/
def hidden (x a : FVec Ideal S100000x128 .f32) (d : FVec Ideal S100000 .f32) (ws wn : FVec Ideal S128x128 .f32)
    (b : FVec Ideal S128 .f32) : FVec Ideal S100000x128 .f32 := fun idx =>
  max (cell (fun k : Fin 128 => x (ix2 (⟨(idx 0).val, idx2_lt0 idx⟩ : Fin 100000) k))
        (fun k : Fin 128 => a (ix2 (⟨(idx 0).val, idx2_lt0 idx⟩ : Fin 100000) k))
        (d (ix1 (⟨(idx 0).val, idx2_lt0 idx⟩ : Fin 100000)))
        (fun k : Fin 128 => ws (ix2 (⟨(idx 1).val, idx2_lt1 idx⟩ : Fin 128) k))
        (fun k : Fin 128 => wn (ix2 (⟨(idx 1).val, idx2_lt1 idx⟩ : Fin 128) k))
        (b (ix1 (⟨(idx 1).val, idx2_lt1 idx⟩ : Fin 128)))) 0

/-- The output layer: 64 features, no clipping. -/
def output (h a : FVec Ideal S100000x128 .f32) (d : FVec Ideal S100000 .f32) (ws wn : FVec Ideal S64x128 .f32)
    (b : FVec Ideal S64 .f32) : FVec Ideal S100000x64 .f32 := fun idx =>
  cell (fun k : Fin 128 => h (ix2 (⟨(idx 0).val, idx2_lt0 idx⟩ : Fin 100000) k))
    (fun k : Fin 128 => a (ix2 (⟨(idx 0).val, idx2_lt0 idx⟩ : Fin 100000) k))
    (d (ix1 (⟨(idx 0).val, idx2_lt0 idx⟩ : Fin 100000)))
    (fun k : Fin 128 => ws (ix2 (⟨(idx 1).val, idx2_lt1 idx⟩ : Fin 64) k))
    (fun k : Fin 128 => wn (ix2 (⟨(idx 1).val, idx2_lt1 idx⟩ : Fin 64) k))
    (b (ix1 (⟨(idx 1).val, idx2_lt1 idx⟩ : Fin 64)))

/-- The whole network as a function of the nine arguments. -/
def net (x : FVec Ideal S100000x128 .f32) (e1 e2 : IVec S800000 32) (ws1 wn1 : FVec Ideal S128x128 .f32)
    (b1 : FVec Ideal S128 .f32) (ws2 wn2 : FVec Ideal S64x128 .f32) (b2 : FVec Ideal S64 .f32) :
    FVec Ideal S100000x64 .f32 :=
  output (hidden x (agg x e1 e2) (deg e2) ws1 wn1 b1) (agg (hidden x (agg x e1 e2) (deg e2) ws1 wn1 b1) e1 e2) (deg e2) ws2 wn2 b2

end Cert.Sage

end
-- ==== Proof.Payload.lean ====
/-
  The two kernel bodies' stored values, read at one element.

  Each body forms, for a block of 5000 nodes, the product of the node features with the self weights, the product of
  the degree-normalised neighbour sums with the neighbour weights, adds the two and the bias row, and (first layer
  only) takes the maximum with zero. On extended reals the narrowing format changes are the identity and a block
  product into a zero accumulator is the plain sum over the contracted axis, so the element at row p and column q is
  the layer's cell of row p of the two feature blocks, the degree of row p, column q of the two weight blocks and
  entry q of the bias row.
-/
import proofs.«109266_j25598005084435_2_alg».proof.Proof.Spec
import proofs.«109266_j25598005084435_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.Sage.Pay

open Cert.KernelIdeal Cert.KernelIdeal.Gen Idealize.ShloMosaic Idealize.ShloMosaic.ValueIdx

/-! ## The operand indices of the two block products

For a product of a [5000,128] block with a [128,n] block contracting the left operand's columns with the right
operand's rows, the left operand is read at (output row, contraction position) and the right operand at
(contraction position, output column). -/

theorem lhsA_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhsA_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem rhsA_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem rhsA_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

theorem lhsB_0 (i : S5000x64.Idx) (c : dot_S5000x128_S128x64_S5000x64_1_0_0_1_n_n.contr.Idx) :
    (dot_S5000x128_S128x64_S5000x64_1_0_0_1_n_n.lhsIdx i c 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem lhsB_1 (i : S5000x64.Idx) (c : dot_S5000x128_S128x64_S5000x64_1_0_0_1_n_n.contr.Idx) :
    (dot_S5000x128_S128x64_S5000x64_1_0_0_1_n_n.lhsIdx i c 1).val = (c ⟨0, by decide⟩).val :=
  dot_S5000x128_S128x64_S5000x64_1_0_0_1_n_n.lhsIdx_val_of_single rfl i c
theorem rhsB_0 (i : S5000x64.Idx) (c : dot_S5000x128_S128x64_S5000x64_1_0_0_1_n_n.contr.Idx) :
    (dot_S5000x128_S128x64_S5000x64_1_0_0_1_n_n.rhsIdx i c 0).val = (c ⟨0, by decide⟩).val :=
  dot_S5000x128_S128x64_S5000x64_1_0_0_1_n_n.rhsIdx_val_of_single rfl i c
theorem rhsB_1 (i : S5000x64.Idx) (c : dot_S5000x128_S128x64_S5000x64_1_0_0_1_n_n.contr.Idx) :
    (dot_S5000x128_S128x64_S5000x64_1_0_0_1_n_n.rhsIdx i c 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-! ## The block products at an element -/

/-- The 5000×128 by 128×128 product into the zero block, at row p and column q: the sum over the 128 contracted
    positions of the left row's entry times the right column's entry. -/
theorem mm128 (A : FVec Ideal S5000x128 .bf16) (B : FVec Ideal S128x128 .bf16) (p : Fin 5000) (q : Fin 128) :
    matmul dot_S5000x128_S128x128_S5000x128_1_0_0_1_n_n none A B (constant S5000x128 .f32 0x00000000#32) (ix2 p q)
      = ∑ k : Fin 128, A (ix2 p k) * B (ix2 k q) := by
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhsA_0 _ _
      | ⟨1, _⟩ => exact (lhsA_1 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhsA_0 _ _).trans hk
      | ⟨1, _⟩ => exact rhsA_1 _ _)
  rw [el, er]

/-- The 5000×128 by 128×64 product into the zero block, at row p and column q: the same sum. -/
theorem mm64 (A : FVec Ideal S5000x128 .bf16) (B : FVec Ideal S128x64 .bf16) (p : Fin 5000) (q : Fin 64) :
    matmul dot_S5000x128_S128x64_S5000x64_1_0_0_1_n_n none A B (constant S5000x64 .f32 0x00000000#32) (ix2 p q)
      = ∑ k : Fin 128, A (ix2 p k) * B (ix2 k q) := by
  simp only [matmul]
  rw [Ideal.matmul_constant_zero_apply,
    ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q)
      ((contrEquiv1 dot_S5000x128_S128x64_S5000x64_1_0_0_1_n_n 128 rfl rfl).symm k) = ix2 p k :=
    funext fun a => Fin.ext (by
      match a with
      | ⟨0, _⟩ => exact lhsB_0 _ _
      | ⟨1, _⟩ => exact (lhsB_1 _ _).trans hk)
  have er : dot_S5000x128_S128x64_S5000x64_1_0_0_1_n_n.rhsIdx (ix2 p q)
      ((contrEquiv1 dot_S5000x128_S128x64_S5000x64_1_0_0_1_n_n 128 rfl rfl).symm k) = ix2 k q :=
    funext fun a => Fin.ext (by
      match a with
      | ⟨0, _⟩ => exact (rhsB_0 _ _).trans hk
      | ⟨1, _⟩ => exact rhsB_1 _ _)
  rw [el, er]

/-! ## The two spreadings at an element -/

/-- A column of 5000 entries spread over 128 columns reads, at row p and any column, the column's entry p. -/
theorem bcol128 {α : Type} (v : S5000x1.Idx → α) (p : Fin 5000) (q : Fin 128) :
    broadcastTo S5000x128 v broadcasts_S5000x1_S5000x128 (ix2 p q) = v (ix2 p (0 : Fin 1)) :=
  broadcastTo_apply v broadcasts_S5000x1_S5000x128 (ix2 p q) (ix2 p (0 : Fin 1)) (fun a => match a with
    | ⟨0, _⟩ => by show p.val = if (5000 : Nat) = 1 then 0 else p.val; rw [if_neg (by decide)]
    | ⟨1, _⟩ => by show (0 : Fin 1).val = if (1 : Nat) = 1 then 0 else q.val; rw [if_pos rfl]; rfl)

/-- A row of 128 entries spread over 5000 rows reads, at any row and column q, the row's entry q. -/
theorem brow128 {α : Type} (v : S1x128.Idx → α) (p : Fin 5000) (q : Fin 128) :
    broadcastTo S5000x128 v broadcasts_S1x128_S5000x128 (ix2 p q) = v (ix2 (0 : Fin 1) q) :=
  broadcastTo_apply v broadcasts_S1x128_S5000x128 (ix2 p q) (ix2 (0 : Fin 1) q) (fun a => match a with
    | ⟨0, _⟩ => by show (0 : Fin 1).val = if (1 : Nat) = 1 then 0 else p.val; rw [if_pos rfl]; rfl
    | ⟨1, _⟩ => by show q.val = if (128 : Nat) = 1 then 0 else q.val; rw [if_neg (by decide)])

/-- A row of 64 entries spread over 5000 rows reads, at any row and column q, the row's entry q. -/
theorem brow64 {α : Type} (v : S1x64.Idx → α) (p : Fin 5000) (q : Fin 64) :
    broadcastTo S5000x64 v broadcasts_S1x64_S5000x64 (ix2 p q) = v (ix2 (0 : Fin 1) q) :=
  broadcastTo_apply v broadcasts_S1x64_S5000x64 (ix2 p q) (ix2 (0 : Fin 1) q) (fun a => match a with
    | ⟨0, _⟩ => by show (0 : Fin 1).val = if (1 : Nat) = 1 then 0 else p.val; rw [if_pos rfl]; rfl
    | ⟨1, _⟩ => by show q.val = if (64 : Nat) = 1 then 0 else q.val; rw [if_neg (by decide)])

/-! ## The stored values at an element -/

/-- The first layer's stored block at row p and column q: the cell of the rows p, the degree of row p, the columns q
    and the bias entry q, clipped below at zero. -/
theorem pay0_apply (x0 x1 : Vec Ideal S5000x128 .f32) (x2 : Vec Ideal S5000x1 .f32) (x3 x4 : Vec Ideal S128x128 .f32)
    (x5 : Vec Ideal S1x128 .f32) (p : Fin 5000) (q : Fin 128) :
    Cert.KernelIdeal.Gen.k0_pay1 (F := Ideal) x0 x1 x2 x3 x4 x5 (ix2 p q)
      = max (Cert.Sage.cell (fun k : Fin 128 => x0 (ix2 p k)) (fun k : Fin 128 => x1 (ix2 p k)) (x2 (ix2 p (0 : Fin 1)))
          (fun k : Fin 128 => x3 (ix2 k q)) (fun k : Fin 128 => x4 (ix2 k q)) (x5 (ix2 (0 : Fin 1) q))) 0 := by
  unfold k0_pay1
  -- the casts to the same shape are the identity
  simp only [shapeCast_self]
  -- every operation read at the element; the two products are the sums over the contracted position
  simp only [maximumf_apply, addf_apply, mm128, brow128, truncf_apply, divf_apply, bcol128, broadcast_apply]
  -- the scalar the maximum is taken with is zero
  exact congrArg (max _) Ideal.ofBits_zero_f32

/-- The second layer's stored block at row p and column q: the cell, not clipped. -/
theorem pay1_apply (x0 x1 : Vec Ideal S5000x128 .f32) (x2 : Vec Ideal S5000x1 .f32) (x3 x4 : Vec Ideal S128x64 .f32)
    (x5 : Vec Ideal S1x64 .f32) (p : Fin 5000) (q : Fin 64) :
    Cert.KernelIdeal.Gen.k1_pay1 (F := Ideal) x0 x1 x2 x3 x4 x5 (ix2 p q)
      = Cert.Sage.cell (fun k : Fin 128 => x0 (ix2 p k)) (fun k : Fin 128 => x1 (ix2 p k)) (x2 (ix2 p (0 : Fin 1)))
          (fun k : Fin 128 => x3 (ix2 k q)) (fun k : Fin 128 => x4 (ix2 k q)) (x5 (ix2 (0 : Fin 1) q)) := by
  unfold k1_pay1
  simp only [shapeCast_self]
  simp only [addf_apply, mm64, brow64, truncf_apply, divf_apply, bcol128]
  rfl

end Cert.Sage.Pay

end
-- ==== Proof.Region0.lean ====
/-
  What the first pallas_call leaves in its result array, as one function of the arrays it is entered with.

  The call runs over 20 grid points; point `t` reads rows `5000·t … 5000·t + 4999` of the node features, of the
  aggregated neighbour features and of the degree column, reads the two weight matrices and the bias row whole,
  and writes rows `5000·t … 5000·t + 4999` of the result. An element `(r, q)` of the block at point `t` is the layer's
  cell at node `5000·t + r` and feature `q`, clipped below at zero; the 20 blocks tile the array, so the array ends
  holding that cell at every `(i, q)`.
-/
import proofs.«109266_j25598005084435_2_alg».proof.Proof.Gen.KernelIdeal.Frame
import proofs.«109266_j25598005084435_2_alg».proof.Proof.Spec
import proofs.«109266_j25598005084435_2_alg».proof.Proof.Payload
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.Sage.K0

open Cert.KernelIdeal Cert.KernelIdeal.Gen

theorem hz : (![0, 0] : Fin 2 → Nat) = fun _ => 0 := funext fun a => by fin_cases a <;> rfl

/-- The array the call leaves: the clipped cell at every node and feature, from the six arrays the call reads
    (features, aggregated features, degree column, the two weight matrices as the call sees them, bias row). -/
def G (a0 a1 : S100000x128.Idx → EReal) (a2 : S100000x1.Idx → EReal) (a3 a4 : S128x128.Idx → EReal)
    (a5 : S1x128.Idx → EReal) : S100000x128.Idx → EReal := fun i =>
  max (Cert.Sage.cell (fun k : Fin 128 => a0 (ix2 (⟨(i 0).val, idx2_lt0 i⟩ : Fin 100000) k))
        (fun k : Fin 128 => a1 (ix2 (⟨(i 0).val, idx2_lt0 i⟩ : Fin 100000) k))
        (a2 (ix2 (⟨(i 0).val, idx2_lt0 i⟩ : Fin 100000) (0 : Fin 1)))
        (fun k : Fin 128 => a3 (ix2 k (⟨(i 1).val, idx2_lt1 i⟩ : Fin 128)))
        (fun k : Fin 128 => a4 (ix2 k (⟨(i 1).val, idx2_lt1 i⟩ : Fin 128)))
        (a5 (ix2 (0 : Fin 1) (⟨(i 1).val, idx2_lt1 i⟩ : Fin 128)))) 0

/-- One element of the block a grid point stores, when the point's input blocks are rows `5000·n …` of the arrays. -/
theorem block_elt (x0 x1 : Vec Ideal S5000x128 .f32) (x2 : Vec Ideal S5000x1 .f32) (x3 x4 : Vec Ideal S128x128 .f32)
    (x5 : Vec Ideal S1x128 .f32)
    (a0 a1 : S100000x128.Idx → EReal) (a2 : S100000x1.Idx → EReal) (a3 a4 : S128x128.Idx → EReal) (a5 : S1x128.Idx → EReal)
    (n : Nat) (hn : n < 20)
    (h0 : ∀ (p : Fin 5000) (k : Fin 128), x0 (ix2 p k) = a0 (ix2 (⟨n * 5000 + p.val, by omega⟩ : Fin 100000) k))
    (h1 : ∀ (p : Fin 5000) (k : Fin 128), x1 (ix2 p k) = a1 (ix2 (⟨n * 5000 + p.val, by omega⟩ : Fin 100000) k))
    (h2 : ∀ (p : Fin 5000), x2 (ix2 p (0 : Fin 1)) = a2 (ix2 (⟨n * 5000 + p.val, by omega⟩ : Fin 100000) (0 : Fin 1)))
    (h3 : ∀ (k q : Fin 128), x3 (ix2 k q) = a3 (ix2 k q))
    (h4 : ∀ (k q : Fin 128), x4 (ix2 k q) = a4 (ix2 k q))
    (h5 : ∀ (q : Fin 128), x5 (ix2 (0 : Fin 1) q) = a5 (ix2 (0 : Fin 1) q))
    (j : S5000x128.Idx) (i : S100000x128.Idx) (hi0 : (i 0).val = n * 5000 + (j 0).val) (hi1 : (i 1).val = (j 1).val) :
    out0_6 (F := Ideal) x0 x1 x2 x3 x4 x5 j = G a0 a1 a2 a3 a4 a5 i := by
  obtain ⟨p, q, rfl⟩ : ∃ (p : Fin 5000) (q : Fin 128), j = ix2 p q := ⟨j 0, j 1, eq_ix2 j⟩
  unfold out0_6
  rw [View.canon_unit_zero hz]
  simp only [View.ld_unit_zero (S := S5000x128) hz, View.ld_unit_zero (S := S5000x1) hz,
    View.ld_unit_zero (S := S128x128) hz, View.ld_unit_zero (S := S1x128) hz]
  rw [Cert.Sage.Pay.pay0_apply]
  unfold G
  have e0 : (⟨(i 0).val, idx2_lt0 i⟩ : Fin 100000) = ⟨n * 5000 + p.val, by omega⟩ := Fin.ext hi0
  have e1 : (⟨(i 1).val, idx2_lt1 i⟩ : Fin 128) = q := Fin.ext hi1
  rw [e0, e1]
  simp only [h0, h1, h2, h3, h4, h5]

/-- The printed index maps over the grid: the three row-blocked inputs and the output sit at block row `t`, block
    column 0; the weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- WHAT POINT `t` WRITES BACK is block `t` of `G` of the arrays as the call finds them. -/
theorem flushed_eq (c : Dev nD) (t : Fin cfg0.N) :
    (dat0 V c).flushed 6 t = ((cfg0.win 6).blk t).view.read (Elt Ideal)
      (G (V c main_arg0) (V c main_v17) (V c main_v21) (V c main_v18) (V c main_v19) (V c main_v20)) := by
  show (cfg0.win 6).cut (grid0.coords t) ((dat0 V c).after 6 t) = _
  rw [after0_6]
  obtain ⟨e00, e01, e10, e11, e20, e21, e30, e31, e40, e41, e50, e51, e60, e61⟩ := idx_facts t
  have hN : cfg0.N = 20 := N_0
  have ht : t.val < 20 := hN ▸ t.isLt
  funext j
  rw [View.read_apply]
  refine block_elt _ _ _ _ _ _ _ _ _ _ _ _ t.val ht ?_ ?_ ?_ ?_ ?_ ?_ j _ ?_ ?_
  · intro p k
    unfold iblk0
    rw [View.read_apply]
    show V c main_arg0 _ = V c main_arg0 _
    congr 1
    funext a
    apply Fin.ext
    match a with
    | ⟨0, _⟩ => show win0_0.index t 0 * 5000 + 1 * p.val = t.val * 5000 + p.val; rw [e00]; omega
    | ⟨1, _⟩ => show win0_0.index t 1 * 128 + 1 * k.val = k.val; rw [e01]; omega
  · intro p k
    unfold iblk0
    rw [View.read_apply]
    show V c main_v17 _ = V c main_v17 _
    congr 1
    funext a
    apply Fin.ext
    match a with
    | ⟨0, _⟩ => show win0_1.index t 0 * 5000 + 1 * p.val = t.val * 5000 + p.val; rw [e10]; omega
    | ⟨1, _⟩ => show win0_1.index t 1 * 128 + 1 * k.val = k.val; rw [e11]; omega
  · intro p
    unfold iblk0
    rw [View.read_apply]
    show V c main_v21 _ = V c main_v21 _
    congr 1
    funext a
    apply Fin.ext
    match a with
    | ⟨0, _⟩ => show win0_2.index t 0 * 5000 + 1 * p.val = t.val * 5000 + p.val; rw [e20]; omega
    | ⟨1, _⟩ => show win0_2.index t 1 * 1 + 1 * 0 = 0; rw [e21]
  · intro k q
    unfold iblk0
    rw [View.read_apply]
    show V c main_v18 _ = V c main_v18 _
    congr 1
    funext a
    apply Fin.ext
    match a with
    | ⟨0, _⟩ => show win0_3.index t 0 * 128 + 1 * k.val = k.val; rw [e30]; omega
    | ⟨1, _⟩ => show win0_3.index t 1 * 128 + 1 * q.val = q.val; rw [e31]; omega
  · intro k q
    unfold iblk0
    rw [View.read_apply]
    show V c main_v19 _ = V c main_v19 _
    congr 1
    funext a
    apply Fin.ext
    match a with
    | ⟨0, _⟩ => show win0_4.index t 0 * 128 + 1 * k.val = k.val; rw [e40]; omega
    | ⟨1, _⟩ => show win0_4.index t 1 * 128 + 1 * q.val = q.val; rw [e41]; omega
  · intro q
    unfold iblk0
    rw [View.read_apply]
    show V c main_v20 _ = V c main_v20 _
    congr 1
    funext a
    apply Fin.ext
    match a with
    | ⟨0, _⟩ => show win0_5.index t 0 * 1 + 1 * 0 = 0; rw [e50]
    | ⟨1, _⟩ => show win0_5.index t 1 * 128 + 1 * q.val = q.val; rw [e51]; omega
  · show win0_6.index t 0 * 5000 + 1 * (j 0).val = t.val * 5000 + (j 0).val; rw [e60]; omega
  · show win0_6.index t 1 * 128 + 1 * (j 1).val = (j 1).val; rw [e61]; omega

/-- An index of the array is in point `t`'s block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v22).slice (win0_6.rect t)).set ↔ _
  rw [View.set_slice_whole, Rect.mem_set_unit]
  exact Iff.rfl

/-- The 20 row blocks tile the array: row `r` lies in the block of point `r / 5000`. -/
theorem cover (i : S100000x128.Idx) :
    ∃ t : Fin cfg0.N, (cfg0.win 6).flush t = true ∧ i ∈ ((cfg0.win 6).blk t).view.set := by
  have hN : cfg0.N = 20 := N_0
  have hi0 : (i 0).val < 100000 := idx2_lt0 i
  have hi1 : (i 1).val < 128 := idx2_lt1 i
  let t : Fin cfg0.N := ⟨(i 0).val / 5000, by rw [hN]; omega⟩
  obtain ⟨-, -, -, -, -, -, -, -, -, -, -, -, e60, e61⟩ := idx_facts t
  have ht : t.val = (i 0).val / 5000 := rfl
  refine ⟨t, flush0_6 t, ?_⟩
  rw [mem_blk]
  intro a
  match a with
  | ⟨0, _⟩ => show win0_6.index t 0 * 5000 ≤ (i 0).val ∧ (i 0).val < win0_6.index t 0 * 5000 + 5000; rw [e60, ht]; omega
  | ⟨1, _⟩ => show win0_6.index t 1 * 128 ≤ (i 1).val ∧ (i 1).val < win0_6.index t 1 * 128 + 128; rw [e61]; omega

/-- THE ARRAY after the call: the clipped cell everywhere. -/
theorem final (c : Dev nD) : (dat0 V c).arrAt 6 cfg0.N
    = G (V c main_arg0) (V c main_v17) (V c main_v21) (V c main_v18) (V c main_v19) (V c main_v20) :=
  (dat0 V c).arrAt_eq_of_cover 6 _ (fun t _ => flushed_eq V c t) cover

/-- With the degree column, the transposed weights and the bias row read back to the degrees, the weights and the
    bias, the array the call leaves is the hidden layer. -/
theorem G_eq_hidden (x a : S100000x128.Idx → EReal) (d : S100000.Idx → EReal) (ws wn : S128x128.Idx → EReal)
    (b : S128.Idx → EReal) (d' : S100000x1.Idx → EReal) (ws' wn' : S128x128.Idx → EReal) (b' : S1x128.Idx → EReal)
    (hd : ∀ r : Fin 100000, d' (ix2 r (0 : Fin 1)) = d (ix1 r))
    (hws : ∀ k q : Fin 128, ws' (ix2 k q) = ws (ix2 q k)) (hwn : ∀ k q : Fin 128, wn' (ix2 k q) = wn (ix2 q k))
    (hb : ∀ q : Fin 128, b' (ix2 (0 : Fin 1) q) = b (ix1 q)) :
    G x a d' ws' wn' b' = Cert.Sage.hidden x a d ws wn b := by
  funext i
  unfold G Cert.Sage.hidden
  simp only [hd, hws, hwn, hb]

end Cert.Sage.K0

end
-- ==== Proof.Region1.lean ====
/-
  What the second pallas_call leaves in its result array, as one function of the arrays it is entered with.

  The call runs over 20 grid points; point `t` reads rows `5000·t … 5000·t + 4999` of the node features, of the
  aggregated neighbour features and of the degree column, reads the two weight matrices and the bias row whole,
  and writes rows `5000·t … 5000·t + 4999` of the result. An element `(r, q)` of the block at point `t` is the layer's
  cell at node `5000·t + r` and feature `q` (64 features, no clipping); the 20 blocks tile the array, so the array ends
  holding that cell at every `(i, q)`.
-/
import proofs.«109266_j25598005084435_2_alg».proof.Proof.Gen.KernelIdeal.Frame
import proofs.«109266_j25598005084435_2_alg».proof.Proof.Spec
import proofs.«109266_j25598005084435_2_alg».proof.Proof.Payload
import Idealize.ShloMosaic.Lib.Pipeline.Value
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.Sage.K1

open Cert.KernelIdeal Cert.KernelIdeal.Gen

theorem hz : (![0, 0] : Fin 2 → Nat) = fun _ => 0 := funext fun a => by fin_cases a <;> rfl

/-- The array the call leaves: the cell at every node and feature, from the six arrays the call reads
    (features, aggregated features, degree column, the two weight matrices as the call sees them, bias row). -/
def G (a0 a1 : S100000x128.Idx → EReal) (a2 : S100000x1.Idx → EReal) (a3 a4 : S128x64.Idx → EReal)
    (a5 : S1x64.Idx → EReal) : S100000x64.Idx → EReal := fun i =>
  Cert.Sage.cell (fun k : Fin 128 => a0 (ix2 (⟨(i 0).val, idx2_lt0 i⟩ : Fin 100000) k))
        (fun k : Fin 128 => a1 (ix2 (⟨(i 0).val, idx2_lt0 i⟩ : Fin 100000) k))
        (a2 (ix2 (⟨(i 0).val, idx2_lt0 i⟩ : Fin 100000) (0 : Fin 1)))
        (fun k : Fin 128 => a3 (ix2 k (⟨(i 1).val, idx2_lt1 i⟩ : Fin 64)))
        (fun k : Fin 128 => a4 (ix2 k (⟨(i 1).val, idx2_lt1 i⟩ : Fin 64)))
        (a5 (ix2 (0 : Fin 1) (⟨(i 1).val, idx2_lt1 i⟩ : Fin 64)))

/-- One element of the block a grid point stores, when the point's input blocks are rows `5000·n …` of the arrays. -/
theorem block_elt (x0 x1 : Vec Ideal S5000x128 .f32) (x2 : Vec Ideal S5000x1 .f32) (x3 x4 : Vec Ideal S128x64 .f32)
    (x5 : Vec Ideal S1x64 .f32)
    (a0 a1 : S100000x128.Idx → EReal) (a2 : S100000x1.Idx → EReal) (a3 a4 : S128x64.Idx → EReal) (a5 : S1x64.Idx → EReal)
    (n : Nat) (hn : n < 20)
    (h0 : ∀ (p : Fin 5000) (k : Fin 128), x0 (ix2 p k) = a0 (ix2 (⟨n * 5000 + p.val, by omega⟩ : Fin 100000) k))
    (h1 : ∀ (p : Fin 5000) (k : Fin 128), x1 (ix2 p k) = a1 (ix2 (⟨n * 5000 + p.val, by omega⟩ : Fin 100000) k))
    (h2 : ∀ (p : Fin 5000), x2 (ix2 p (0 : Fin 1)) = a2 (ix2 (⟨n * 5000 + p.val, by omega⟩ : Fin 100000) (0 : Fin 1)))
    (h3 : ∀ (k : Fin 128) (q : Fin 64), x3 (ix2 k q) = a3 (ix2 k q))
    (h4 : ∀ (k : Fin 128) (q : Fin 64), x4 (ix2 k q) = a4 (ix2 k q))
    (h5 : ∀ (q : Fin 64), x5 (ix2 (0 : Fin 1) q) = a5 (ix2 (0 : Fin 1) q))
    (j : S5000x64.Idx) (i : S100000x64.Idx) (hi0 : (i 0).val = n * 5000 + (j 0).val) (hi1 : (i 1).val = (j 1).val) :
    out1_6 (F := Ideal) x0 x1 x2 x3 x4 x5 j = G a0 a1 a2 a3 a4 a5 i := by
  obtain ⟨p, q, rfl⟩ : ∃ (p : Fin 5000) (q : Fin 64), j = ix2 p q := ⟨j 0, j 1, eq_ix2 j⟩
  unfold out1_6
  rw [View.canon_unit_zero hz]
  simp only [View.ld_unit_zero (S := S5000x128) hz, View.ld_unit_zero (S := S5000x1) hz,
    View.ld_unit_zero (S := S128x64) hz, View.ld_unit_zero (S := S1x64) hz]
  rw [Cert.Sage.Pay.pay1_apply]
  unfold G
  have e0 : (⟨(i 0).val, idx2_lt0 i⟩ : Fin 100000) = ⟨n * 5000 + p.val, by omega⟩ := Fin.ext hi0
  have e1 : (⟨(i 1).val, idx2_lt1 i⟩ : Fin 64) = q := Fin.ext hi1
  rw [e0, e1]
  simp only [h0, h1, h2, h3, h4, h5]

/-- The printed index maps over the grid: the three row-blocked inputs and the output sit at block row `t`, block
    column 0; the weights and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- WHAT POINT `t` WRITES BACK is block `t` of `G` of the arrays as the call finds them. -/
theorem flushed_eq (c : Dev nD) (t : Fin cfg1.N) :
    (dat1 V c).flushed 6 t = ((cfg1.win 6).blk t).view.read (Elt Ideal)
      (G (V c main_v22) (V c main_v34) (V c main_v38) (V c main_v35) (V c main_v36) (V c main_v37)) := by
  show (cfg1.win 6).cut (grid1.coords t) ((dat1 V c).after 6 t) = _
  rw [after1_6]
  obtain ⟨e00, e01, e10, e11, e20, e21, e30, e31, e40, e41, e50, e51, e60, e61⟩ := idx_facts t
  have hN : cfg1.N = 20 := N_1
  have ht : t.val < 20 := hN ▸ t.isLt
  funext j
  rw [View.read_apply]
  refine block_elt _ _ _ _ _ _ _ _ _ _ _ _ t.val ht ?_ ?_ ?_ ?_ ?_ ?_ j _ ?_ ?_
  · intro p k
    unfold iblk1
    rw [View.read_apply]
    show V c main_v22 _ = V c main_v22 _
    congr 1
    funext a
    apply Fin.ext
    match a with
    | ⟨0, _⟩ => show win1_0.index t 0 * 5000 + 1 * p.val = t.val * 5000 + p.val; rw [e00]; omega
    | ⟨1, _⟩ => show win1_0.index t 1 * 128 + 1 * k.val = k.val; rw [e01]; omega
  · intro p k
    unfold iblk1
    rw [View.read_apply]
    show V c main_v34 _ = V c main_v34 _
    congr 1
    funext a
    apply Fin.ext
    match a with
    | ⟨0, _⟩ => show win1_1.index t 0 * 5000 + 1 * p.val = t.val * 5000 + p.val; rw [e10]; omega
    | ⟨1, _⟩ => show win1_1.index t 1 * 128 + 1 * k.val = k.val; rw [e11]; omega
  · intro p
    unfold iblk1
    rw [View.read_apply]
    show V c main_v38 _ = V c main_v38 _
    congr 1
    funext a
    apply Fin.ext
    match a with
    | ⟨0, _⟩ => show win1_2.index t 0 * 5000 + 1 * p.val = t.val * 5000 + p.val; rw [e20]; omega
    | ⟨1, _⟩ => show win1_2.index t 1 * 1 + 1 * 0 = 0; rw [e21]
  · intro k q
    unfold iblk1
    rw [View.read_apply]
    show V c main_v35 _ = V c main_v35 _
    congr 1
    funext a
    apply Fin.ext
    match a with
    | ⟨0, _⟩ => show win1_3.index t 0 * 128 + 1 * k.val = k.val; rw [e30]; omega
    | ⟨1, _⟩ => show win1_3.index t 1 * 64 + 1 * q.val = q.val; rw [e31]; omega
  · intro k q
    unfold iblk1
    rw [View.read_apply]
    show V c main_v36 _ = V c main_v36 _
    congr 1
    funext a
    apply Fin.ext
    match a with
    | ⟨0, _⟩ => show win1_4.index t 0 * 128 + 1 * k.val = k.val; rw [e40]; omega
    | ⟨1, _⟩ => show win1_4.index t 1 * 64 + 1 * q.val = q.val; rw [e41]; omega
  · intro q
    unfold iblk1
    rw [View.read_apply]
    show V c main_v37 _ = V c main_v37 _
    congr 1
    funext a
    apply Fin.ext
    match a with
    | ⟨0, _⟩ => show win1_5.index t 0 * 1 + 1 * 0 = 0; rw [e50]
    | ⟨1, _⟩ => show win1_5.index t 1 * 64 + 1 * q.val = q.val; rw [e51]; omega
  · show win1_6.index t 0 * 5000 + 1 * (j 0).val = t.val * 5000 + (j 0).val; rw [e60]; omega
  · show win1_6.index t 1 * 64 + 1 * (j 1).val = (j 1).val; rw [e61]; omega

/-- An index of the array is in point `t`'s block iff each coordinate is in the block's range on its axis. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v39).slice (win1_6.rect t)).set ↔ _
  rw [View.set_slice_whole, Rect.mem_set_unit]
  exact Iff.rfl

/-- The 20 row blocks tile the array: row `r` lies in the block of point `r / 5000`. -/
theorem cover (i : S100000x64.Idx) :
    ∃ t : Fin cfg1.N, (cfg1.win 6).flush t = true ∧ i ∈ ((cfg1.win 6).blk t).view.set := by
  have hN : cfg1.N = 20 := N_1
  have hi0 : (i 0).val < 100000 := idx2_lt0 i
  have hi1 : (i 1).val < 64 := idx2_lt1 i
  let t : Fin cfg1.N := ⟨(i 0).val / 5000, by rw [hN]; omega⟩
  obtain ⟨-, -, -, -, -, -, -, -, -, -, -, -, e60, e61⟩ := idx_facts t
  have ht : t.val = (i 0).val / 5000 := rfl
  refine ⟨t, flush1_6 t, ?_⟩
  rw [mem_blk]
  intro a
  match a with
  | ⟨0, _⟩ => show win1_6.index t 0 * 5000 ≤ (i 0).val ∧ (i 0).val < win1_6.index t 0 * 5000 + 5000; rw [e60, ht]; omega
  | ⟨1, _⟩ => show win1_6.index t 1 * 64 ≤ (i 1).val ∧ (i 1).val < win1_6.index t 1 * 64 + 64; rw [e61]; omega

/-- THE ARRAY after the call: the cell everywhere. -/
theorem final (c : Dev nD) : (dat1 V c).arrAt 6 cfg1.N
    = G (V c main_v22) (V c main_v34) (V c main_v38) (V c main_v35) (V c main_v36) (V c main_v37) :=
  (dat1 V c).arrAt_eq_of_cover 6 _ (fun t _ => flushed_eq V c t) cover

/-- With the degree column, the transposed weights and the bias row read back to the degrees, the weights and the
    bias, the array the call leaves is the output layer. -/
theorem G_eq_output (h a : S100000x128.Idx → EReal) (d : S100000.Idx → EReal) (ws wn : S64x128.Idx → EReal)
    (b : S64.Idx → EReal) (d' : S100000x1.Idx → EReal) (ws' wn' : S128x64.Idx → EReal) (b' : S1x64.Idx → EReal)
    (hd : ∀ r : Fin 100000, d' (ix2 r (0 : Fin 1)) = d (ix1 r))
    (hws : ∀ (k : Fin 128) (q : Fin 64), ws' (ix2 k q) = ws (ix2 q k))
    (hwn : ∀ (k : Fin 128) (q : Fin 64), wn' (ix2 k q) = wn (ix2 q k))
    (hb : ∀ q : Fin 64, b' (ix2 (0 : Fin 1) q) = b (ix1 q)) :
    G h a d' ws' wn' b' = Cert.Sage.output h a d ws wn b := by
  funext i
  unfold G Cert.Sage.output
  simp only [hd, hws, hwn, hb]

end Cert.Sage.K1

end
-- ==== Proof.HostGlue.lean ====
/-
  The host operations around the two pallas_calls, read at the buffers the calls and the result depend on.

  Before the first call the program computes, from the arguments: the in-degree of every node, at least one (a
  scatter-sum of ones over the edge destinations, then a maximum with one); the aggregated neighbour features (the
  source rows gathered, after a change of float format that is the identity on extended reals, and scatter-summed over
  the destinations); the two weight matrices transposed; the bias and the degrees reshaped to a row and to a column.
  Between the calls it does the same from the first call's result and the second layer's weights. Each stretch is
  read here from an arbitrary valuation of the buffers it starts from, so the gather and the scatter-sum stay closed.
-/
import proofs.«109266_j25598005084435_2_alg».proof.Proof.Gen.KernelIdeal.Launch
import proofs.«109266_j25598005084435_2_alg».proof.Proof.Spec
import Idealize.ShloMosaic.Lib.StableHlo.Run

noncomputable section

open Idealize.ShloMosaic Idealize.ShloMosaic.TcCoe Idealize.SL.Sem Idealize.ShloMosaic.StableHlo

namespace Cert.Sage.Host

open Cert.KernelIdeal Cert.KernelIdeal.Gen

variable (U : Valuation τ sig (Elt Ideal))

/-! ## The stretch before the first call -/

set_option maxHeartbeats 4000000 in
theorem pre_arg0 : StableHlo.after (hostOps0 (F := Ideal)) U (Proc.devRef .tc main_arg0) = U (Proc.devRef .tc main_arg0) := by
  after_results_simp
set_option maxHeartbeats 4000000 in
theorem pre_agg : StableHlo.after (hostOps0 (F := Ideal)) U (Proc.devRef .tc main_v17)
    = Cert.Sage.agg (U (Proc.devRef .tc main_arg0)) (U (Proc.devRef .tc main_arg1)) (U (Proc.devRef .tc main_arg2)) := by
  after_results_simp
  rfl
set_option maxHeartbeats 4000000 in
theorem pre_deg : StableHlo.after (hostOps0 (F := Ideal)) U (Proc.devRef .tc main_v5)
    = Cert.Sage.deg (U (Proc.devRef .tc main_arg2)) := by
  after_results_simp
  rfl

set_option maxHeartbeats 4000000 in
theorem pre_col : StableHlo.after (hostOps0 (F := Ideal)) U (Proc.devRef .tc main_v21)
    = shapeCast S100000x1 (Cert.Sage.deg (U (Proc.devRef .tc main_arg2))) shapeCasts_S100000_S100000x1 := by
  after_results_simp
  rfl
set_option maxHeartbeats 4000000 in
theorem pre_ws : StableHlo.after (hostOps0 (F := Ideal)) U (Proc.devRef .tc main_v18)
    = transpose S128x128 [1, 0] (U (Proc.devRef .tc main_arg3)) transposes_S128x128_S128x128_1_0 := by
  after_results_simp
set_option maxHeartbeats 4000000 in
theorem pre_wn : StableHlo.after (hostOps0 (F := Ideal)) U (Proc.devRef .tc main_v19)
    = transpose S128x128 [1, 0] (U (Proc.devRef .tc main_arg4)) transposes_S128x128_S128x128_1_0 := by
  after_results_simp
set_option maxHeartbeats 4000000 in
theorem pre_bias : StableHlo.after (hostOps0 (F := Ideal)) U (Proc.devRef .tc main_v20)
    = shapeCast S1x128 (U (Proc.devRef .tc main_arg5)) shapeCasts_S128_S1x128 := by
  after_results_simp
  rfl
set_option maxHeartbeats 4000000 in
theorem pre_arg1 : StableHlo.after (hostOps0 (F := Ideal)) U (Proc.devRef .tc main_arg1) = U (Proc.devRef .tc main_arg1) := by
  after_results_simp
set_option maxHeartbeats 4000000 in
theorem pre_arg2 : StableHlo.after (hostOps0 (F := Ideal)) U (Proc.devRef .tc main_arg2) = U (Proc.devRef .tc main_arg2) := by
  after_results_simp
set_option maxHeartbeats 4000000 in
theorem pre_arg6 : StableHlo.after (hostOps0 (F := Ideal)) U (Proc.devRef .tc main_arg6) = U (Proc.devRef .tc main_arg6) := by
  after_results_simp
set_option maxHeartbeats 4000000 in
theorem pre_arg7 : StableHlo.after (hostOps0 (F := Ideal)) U (Proc.devRef .tc main_arg7) = U (Proc.devRef .tc main_arg7) := by
  after_results_simp
set_option maxHeartbeats 4000000 in
theorem pre_arg8 : StableHlo.after (hostOps0 (F := Ideal)) U (Proc.devRef .tc main_arg8) = U (Proc.devRef .tc main_arg8) := by
  after_results_simp

/-! ## The stretch between the calls -/

set_option maxHeartbeats 4000000 in
theorem mid_h : StableHlo.after (hostOps1 (F := Ideal)) U (Proc.devRef .tc main_v22) = U (Proc.devRef .tc main_v22) := by
  after_results_simp
set_option maxHeartbeats 4000000 in
theorem mid_agg : StableHlo.after (hostOps1 (F := Ideal)) U (Proc.devRef .tc main_v34)
    = Cert.Sage.agg (U (Proc.devRef .tc main_v22)) (U (Proc.devRef .tc main_arg1)) (U (Proc.devRef .tc main_arg2)) := by
  after_results_simp
  rfl
set_option maxHeartbeats 4000000 in
theorem mid_col : StableHlo.after (hostOps1 (F := Ideal)) U (Proc.devRef .tc main_v38)
    = shapeCast S100000x1 (U (Proc.devRef .tc main_v5)) shapeCasts_S100000_S100000x1 := by
  after_results_simp
  rfl
set_option maxHeartbeats 4000000 in
theorem mid_ws : StableHlo.after (hostOps1 (F := Ideal)) U (Proc.devRef .tc main_v35)
    = transpose S128x64 [1, 0] (U (Proc.devRef .tc main_arg6)) transposes_S64x128_S128x64_1_0 := by
  after_results_simp
set_option maxHeartbeats 4000000 in
theorem mid_wn : StableHlo.after (hostOps1 (F := Ideal)) U (Proc.devRef .tc main_v36)
    = transpose S128x64 [1, 0] (U (Proc.devRef .tc main_arg7)) transposes_S64x128_S128x64_1_0 := by
  after_results_simp
set_option maxHeartbeats 4000000 in
theorem mid_bias : StableHlo.after (hostOps1 (F := Ideal)) U (Proc.devRef .tc main_v37)
    = shapeCast S1x64 (U (Proc.devRef .tc main_arg8)) shapeCasts_S64_S1x64 := by
  after_results_simp
  rfl

end Cert.Sage.Host

end
-- ==== Proof.Layout.lean ====
/-
  Layout operations read at an index given by its coordinates, for the literal shapes of the two layers.

  A vector of `n` entries reshaped to a column `[n, 1]` or to a row `[1, n]` keeps every entry at its row-major
  position, so entry `(r, 0)` of the column and entry `(0, q)` of the row are entries `r` and `q` of the vector; a
  transposed matrix reads, at `(k, q)`, the matrix at `(q, k)`. The fact that the shapes admit the operation is a
  hypothesis of each lemma, so a lemma applies to the operation wherever it is stated.
-/
import proofs.«109266_j25598005084435_2_alg».proof.Proof.Spec
import Idealize.ShloMosaic.Lib.ValueLayout

noncomputable section

namespace Cert.Sage.Layout

open Cert.ReferenceIdeal Idealize.ShloMosaic Idealize.ShloMosaic.ValueIdx

/-- The degree vector as a column: entry `(r, 0)` is entry `r` (position `r · 1 + 0 = r`). -/
theorem col_apply (d : FVec Ideal S100000 .f32) (h : S100000.ShapeCasts S100000x1) (r : Fin 100000) :
    shapeCast S100000x1 d h (ix2 r (0 : Fin 1)) = d (ix1 r) :=
  shapeCast_apply d h _ _ (by
    rw [Shape.rowMajor_val_two, Shape.rowMajor_val_one]
    show r.val = r.val * 1 + 0
    rw [Nat.mul_one, Nat.add_zero])

/-- A bias vector of 128 entries as a row: entry `(0, q)` is entry `q`. -/
theorem row128_apply (b : FVec Ideal S128 .f32) (h : S128.ShapeCasts S1x128) (q : Fin 128) :
    shapeCast S1x128 b h (ix2 (0 : Fin 1) q) = b (ix1 q) :=
  shapeCast_a_1a_apply b h 0 q

/-- A bias vector of 64 entries as a row: entry `(0, q)` is entry `q`. -/
theorem row64_apply (b : FVec Ideal S64 .f32) (h : S64.ShapeCasts S1x64) (q : Fin 64) :
    shapeCast S1x64 b h (ix2 (0 : Fin 1) q) = b (ix1 q) :=
  shapeCast_a_1a_apply b h 0 q

/-- The square weight matrix transposed: entry `(k, q)` is the weight of output feature `q` at input feature `k`. -/
theorem tr128_apply (w : FVec Ideal S128x128 .f32) (h : S128x128.Transposes [1, 0] S128x128) (k q : Fin 128) :
    transpose S128x128 [1, 0] w h (ix2 k q) = w (ix2 q k) :=
  transpose_ix2_apply w h k q

/-- The 64 × 128 weight matrix transposed: entry `(k, q)` is the weight of output feature `q` at input feature `k`. -/
theorem tr64_apply (w : FVec Ideal S64x128 .f32) (h : S64x128.Transposes [1, 0] S128x64) (k : Fin 128) (q : Fin 64) :
    transpose S128x64 [1, 0] w h (ix2 k q) = w (ix2 q k) :=
  transpose_ix2_apply w h k q

end Cert.Sage.Layout

end
-- ==== Proof.KernelValue.lean ====
/-
  The idealized kernel program's result as a function of its arguments: the two-layer network of the specification.

  The result buffer ends at what the second call's write-backs leave; that is the output layer of the arrays the
  second call is entered with; those are the first call's result (the hidden layer of the arguments, by the same
  reading of the first call), its aggregation over the edges, the degree column, the second layer's weights
  transposed and its bias as a row — each read off the host operations between the calls, which start from the
  contents the first call leaves, where every buffer the first call does not write is as the first stretch left it.
-/
import proofs.«109266_j25598005084435_2_alg».proof.Proof.KernelRun
import proofs.«109266_j25598005084435_2_alg».proof.Proof.Region0
import proofs.«109266_j25598005084435_2_alg».proof.Proof.Region1
import proofs.«109266_j25598005084435_2_alg».proof.Proof.HostGlue
import proofs.«109266_j25598005084435_2_alg».proof.Proof.Layout

noncomputable section

open Idealize.ShloMosaic Idealize.ShloMosaic.TcCoe Idealize.SL.Sem Idealize.ShloMosaic.ValueIdx
open Idealize.ShloMosaic.Pipeline (Dat)

namespace Cert.Sage.KVal

open Cert.KernelIdeal Cert.KernelIdeal.Gen

variable (m : (ℓ : Loc nD τ sig) → Buf (Elt Ideal) ℓ) (ρ : Dev nD → PrngReg)

/-! ## Buffers the first call does not write, after it -/

theorem W2_arg1 (c : Dev nD) : W2 m ρ c (Proc.devRef .tc main_arg1) = m ((c.tc : Thread nD τ).loc main_arg1) :=
  (W2_of_ne m ρ c main_arg1 (by decide)).trans (Cert.Sage.Host.pre_arg1 (W0 m ρ c))
theorem W2_arg2 (c : Dev nD) : W2 m ρ c (Proc.devRef .tc main_arg2) = m ((c.tc : Thread nD τ).loc main_arg2) :=
  (W2_of_ne m ρ c main_arg2 (by decide)).trans (Cert.Sage.Host.pre_arg2 (W0 m ρ c))
theorem W2_arg6 (c : Dev nD) : W2 m ρ c (Proc.devRef .tc main_arg6) = m ((c.tc : Thread nD τ).loc main_arg6) :=
  (W2_of_ne m ρ c main_arg6 (by decide)).trans (Cert.Sage.Host.pre_arg6 (W0 m ρ c))
theorem W2_arg7 (c : Dev nD) : W2 m ρ c (Proc.devRef .tc main_arg7) = m ((c.tc : Thread nD τ).loc main_arg7) :=
  (W2_of_ne m ρ c main_arg7 (by decide)).trans (Cert.Sage.Host.pre_arg7 (W0 m ρ c))
theorem W2_arg8 (c : Dev nD) : W2 m ρ c (Proc.devRef .tc main_arg8) = m ((c.tc : Thread nD τ).loc main_arg8) :=
  (W2_of_ne m ρ c main_arg8 (by decide)).trans (Cert.Sage.Host.pre_arg8 (W0 m ρ c))
theorem W2_deg (c : Dev nD) : W2 m ρ c (Proc.devRef .tc main_v5) = Cert.Sage.deg (m ((c.tc : Thread nD τ).loc main_arg2)) :=
  (W2_of_ne m ρ c main_v5 (by decide)).trans (Cert.Sage.Host.pre_deg (W0 m ρ c))

/-! ## The first call's result: the hidden layer -/

theorem hidden_value (c : Dev nD) : W2 m ρ c (Proc.devRef .tc main_v22)
    = Cert.Sage.hidden (m ((c.tc : Thread nD τ).loc main_arg0))
        (Cert.Sage.agg (m ((c.tc : Thread nD τ).loc main_arg0)) (m ((c.tc : Thread nD τ).loc main_arg1)) (m ((c.tc : Thread nD τ).loc main_arg2)))
        (Cert.Sage.deg (m ((c.tc : Thread nD τ).loc main_arg2)))
        (m ((c.tc : Thread nD τ).loc main_arg3)) (m ((c.tc : Thread nD τ).loc main_arg4)) (m ((c.tc : Thread nD τ).loc main_arg5)) := by
  refine (W2_arr m ρ c 6).trans ?_
  rw [Cert.Sage.K0.final (V1 m ρ) c]
  have e0 : V1 m ρ c main_arg0 = m ((c.tc : Thread nD τ).loc main_arg0) := Cert.Sage.Host.pre_arg0 (W0 m ρ c)
  have e1 : V1 m ρ c main_v17 = Cert.Sage.agg (m ((c.tc : Thread nD τ).loc main_arg0)) (m ((c.tc : Thread nD τ).loc main_arg1)) (m ((c.tc : Thread nD τ).loc main_arg2)) :=
    Cert.Sage.Host.pre_agg (W0 m ρ c)
  have e2 : V1 m ρ c main_v21 = shapeCast S100000x1 (Cert.Sage.deg (m ((c.tc : Thread nD τ).loc main_arg2))) shapeCasts_S100000_S100000x1 :=
    Cert.Sage.Host.pre_col (W0 m ρ c)
  have e3 : V1 m ρ c main_v18 = transpose S128x128 [1, 0] (m ((c.tc : Thread nD τ).loc main_arg3)) transposes_S128x128_S128x128_1_0 :=
    Cert.Sage.Host.pre_ws (W0 m ρ c)
  have e4 : V1 m ρ c main_v19 = transpose S128x128 [1, 0] (m ((c.tc : Thread nD τ).loc main_arg4)) transposes_S128x128_S128x128_1_0 :=
    Cert.Sage.Host.pre_wn (W0 m ρ c)
  have e5 : V1 m ρ c main_v20 = shapeCast S1x128 (m ((c.tc : Thread nD τ).loc main_arg5)) shapeCasts_S128_S1x128 :=
    Cert.Sage.Host.pre_bias (W0 m ρ c)
  rw [e0, e1, e2, e3, e4, e5]
  exact Cert.Sage.K0.G_eq_hidden _ _ _ _ _ _ _ _ _ _
    (fun r => Cert.Sage.Layout.col_apply _ _ r)
    (fun k q => Cert.Sage.Layout.tr128_apply _ _ k q)
    (fun k q => Cert.Sage.Layout.tr128_apply _ _ k q)
    (fun q => Cert.Sage.Layout.row128_apply _ _ q)

/-! ## The program's result: the network -/

theorem result_value (c : Dev nD) : W4 m ρ c (Proc.devRef .tc main_v39)
    = Cert.Sage.net (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  refine (W4_arr m ρ c 6).trans ?_
  rw [Cert.Sage.K1.final (V3 m ρ) c]
  have e0 : V3 m ρ c main_v22 = W2 m ρ c (Proc.devRef .tc main_v22) := Cert.Sage.Host.mid_h (W2 m ρ c)
  have e1 : V3 m ρ c main_v34 = Cert.Sage.agg (W2 m ρ c (Proc.devRef .tc main_v22)) (W2 m ρ c (Proc.devRef .tc main_arg1)) (W2 m ρ c (Proc.devRef .tc main_arg2)) :=
    Cert.Sage.Host.mid_agg (W2 m ρ c)
  have e2 : V3 m ρ c main_v38 = shapeCast S100000x1 (W2 m ρ c (Proc.devRef .tc main_v5)) shapeCasts_S100000_S100000x1 :=
    Cert.Sage.Host.mid_col (W2 m ρ c)
  have e3 : V3 m ρ c main_v35 = transpose S128x64 [1, 0] (W2 m ρ c (Proc.devRef .tc main_arg6)) transposes_S64x128_S128x64_1_0 :=
    Cert.Sage.Host.mid_ws (W2 m ρ c)
  have e4 : V3 m ρ c main_v36 = transpose S128x64 [1, 0] (W2 m ρ c (Proc.devRef .tc main_arg7)) transposes_S64x128_S128x64_1_0 :=
    Cert.Sage.Host.mid_wn (W2 m ρ c)
  have e5 : V3 m ρ c main_v37 = shapeCast S1x64 (W2 m ρ c (Proc.devRef .tc main_arg8)) shapeCasts_S64_S1x64 :=
    Cert.Sage.Host.mid_bias (W2 m ρ c)
  rw [e0, e1, e2, e3, e4, e5, hidden_value m ρ c, W2_arg1 m ρ c, W2_arg2 m ρ c, W2_arg6 m ρ c, W2_arg7 m ρ c, W2_arg8 m ρ c, W2_deg m ρ c]
  unfold Cert.Sage.net
  exact Cert.Sage.K1.G_eq_output _ _ _ _ _ _ _ _ _ _
    (fun r => Cert.Sage.Layout.col_apply _ _ r)
    (fun k q => Cert.Sage.Layout.tr64_apply _ _ k q)
    (fun k q => Cert.Sage.Layout.tr64_apply _ _ k q)
    (fun q => Cert.Sage.Layout.row64_apply _ _ q)

/-! ## The run, read -/

/-- Every weakly fair execution of the idealized kernel program terminates with the result array at the network of
    the arguments and the arguments unchanged. -/
theorem run : θ_run defs (onTc (τ := τ) (main (F := Ideal))) ⟨m, fun _ => 0, ρ⟩ (fun r => ∀ c : Dev nD,
      r.2.mem ((c.tc : Thread nD τ).loc main_v39)
        = Cert.Sage.net (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_value m ρ c), (h c).2⟩)
    (Cert.Sage.KRun.run_named (F := Ideal) m ρ)

end Cert.Sage.KVal

end
-- ==== Proof.RefValue.lean ====
/-
  The reference program's result as the two-layer network of `Spec`.

  Each layer of the reference is built from whole-array operations: two contractions over the 128 input
  features (one of the node's own row, one of its neighbour sum divided by its degree, each against a transposed
  weight matrix), a bias row repeated over the nodes, and for the first layer a maximum with the zero array.
  Read at one index `(r, c)` these are the finite sums and the bias entry of `Cert.Sage.cell`; the two general
  lemmas `hidden_eq` and `output_eq` say so for arbitrary operand arrays, and `res_eq` applies them to the
  reference's own composition, whose neighbour sums and degrees are the shared terms `agg` and `deg`.
-/
import proofs.«109266_j25598005084435_2_alg».proof.Proof.Spec
import proofs.«109266_j25598005084435_2_alg».proof.Proof.Gen.ReferenceIdeal.Read

noncomputable section

open scoped BigOperators

namespace Cert.Sage.Ref

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo Idealize.ShloMosaic.ValueIdx

/-! ## The layout operations at an index given by its coordinates -/

/-- A degree column repeated along the feature axis: entry `(r, k)` is the degree of node `r`. -/
theorem row_apply (d : FVec Ideal S100000 .f32) (r : Fin 100000) (k : Fin 128) :
    broadcastInDim S100000x128 ![0, 1] bcast_S100000x1_S100000x128_0_1
      (broadcastInDim S100000x1 ![0] bcast_S100000_S100000x1_0 d) (ix2 r k) = d (ix1 r) :=
  (broadcastInDim_apply _ bcast_S100000x1_S100000x128_0_1 _ (ix2 r k) (ix2 r (⟨0, Nat.one_pos⟩ : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])).trans
  (broadcastInDim_apply _ bcast_S100000_S100000x1_0 d (ix2 r (⟨0, Nat.one_pos⟩ : Fin 1)) (ix1 r) (fun a => match a with
    | ⟨0, _⟩ => by show r.val = if (100000 : Nat) = 1 then 0 else r.val; rw [if_neg (by decide)]))

/-- A bias row of 128 entries repeated over the nodes: entry `(r, c)` is the bias of feature `c`. -/
theorem bias128_apply (b : FVec Ideal S128 .f32) (r : Fin 100000) (c : Fin 128) :
    broadcastInDim S100000x128 ![0, 1] bcast_S1x128_S100000x128_0_1
      (broadcastInDim S1x128 ![1] bcast_S128_S1x128_1 b) (ix2 r c) = b (ix1 c) :=
  (broadcastInDim_apply _ bcast_S1x128_S100000x128_0_1 _ (ix2 r c) (ix2 (⟨0, Nat.one_pos⟩ : Fin 1) c) (fun a => match a with
    | ⟨0, _⟩ => by show 0 = if (1 : Nat) = 1 then 0 else r.val; rw [if_pos rfl]
    | ⟨1, _⟩ => by show c.val = if (128 : Nat) = 1 then 0 else c.val; rw [if_neg (by decide)])).trans
  (broadcastInDim_apply _ bcast_S128_S1x128_1 b (ix2 (⟨0, Nat.one_pos⟩ : Fin 1) c) (ix1 c) (fun a => match a with
    | ⟨0, _⟩ => by show c.val = if (128 : Nat) = 1 then 0 else c.val; rw [if_neg (by decide)]))

/-- A bias row of 64 entries repeated over the nodes. -/
theorem bias64_apply (b : FVec Ideal S64 .f32) (r : Fin 100000) (c : Fin 64) :
    broadcastInDim S100000x64 ![0, 1] bcast_S1x64_S100000x64_0_1
      (broadcastInDim S1x64 ![1] bcast_S64_S1x64_1 b) (ix2 r c) = b (ix1 c) :=
  (broadcastInDim_apply _ bcast_S1x64_S100000x64_0_1 _ (ix2 r c) (ix2 (⟨0, Nat.one_pos⟩ : Fin 1) c) (fun a => match a with
    | ⟨0, _⟩ => by show 0 = if (1 : Nat) = 1 then 0 else r.val; rw [if_pos rfl]
    | ⟨1, _⟩ => by show c.val = if (64 : Nat) = 1 then 0 else c.val; rw [if_neg (by decide)])).trans
  (broadcastInDim_apply _ bcast_S64_S1x64_1 b (ix2 (⟨0, Nat.one_pos⟩ : Fin 1) c) (ix1 c) (fun a => match a with
    | ⟨0, _⟩ => by show c.val = if (64 : Nat) = 1 then 0 else c.val; rw [if_neg (by decide)]))

/-- The zero array: every entry is the extended real `0`. -/
theorem zero_apply (r : Fin 100000) (c : Fin 128) :
    broadcastInDim S100000x128 ![] bcast_S_S100000x128 (constant (F := Ideal) S_ .f32 0x00000000#32) (ix2 r c) = 0 :=
  (broadcastInDim_apply _ bcast_S_S100000x128 _ (ix2 r c) ix0 (fun a => a.elim0)).trans
    ((constant_apply _ _).trans Ideal.ofBits_zero_f32)

/-- The transposed square weight matrix: entry `(k, c)` is the weight of output feature `c` at input feature `k`. -/
theorem tr128_apply (w : FVec Ideal S128x128 .f32) (k c : Fin 128) :
    transpose S128x128 [1, 0] w transposes_S128x128_S128x128_1_0 (ix2 k c) = w (ix2 c k) :=
  transpose_apply [1, 0] w transposes_S128x128_S128x128_1_0 (ix2 k c) (ix2 c k) (fun b => match b with
    | ⟨0, _⟩ => rfl
    | ⟨1, _⟩ => rfl)

/-- The transposed 64 × 128 weight matrix. -/
theorem tr64_apply (w : FVec Ideal S64x128 .f32) (k : Fin 128) (c : Fin 64) :
    transpose S128x64 [1, 0] w transposes_S64x128_S128x64_1_0 (ix2 k c) = w (ix2 c k) :=
  transpose_apply [1, 0] w transposes_S64x128_S128x64_1_0 (ix2 k c) (ix2 c k) (fun b => match b with
    | ⟨0, _⟩ => rfl
    | ⟨1, _⟩ => rfl)

/-! ## The contractions at an index -/

/-- The 128-feature contraction into 128 output features: entry `(r, c)` is `Σₖ l[r,k] · m[k,c]`. -/
theorem dot128_apply (l : FVec Ideal S100000x128 .f32) (m : FVec Ideal S128x128 .f32) (r : Fin 100000) (c : Fin 128) :
    Host.dotGeneral dot_S100000x128_S128x128_S100000x128_1_0_0_1_n_n none l m (ix2 r c)
      = ∑ k : Fin 128, l (ix2 r k) * m (ix2 k c) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r c) ((contrEquiv1 dot_S100000x128_S128x128_S100000x128_1_0_0_1_n_n 128 rfl rfl).symm k) = ix2 r k := funext fun a => Fin.ext (by
    match a with
    | ⟨0, _⟩ => exact lhs_main_v20_0 _ _
    | ⟨1, _⟩ => exact (lhs_main_v20_1 _ _).trans hk)
  have er : dot_S100000x128_S128x128_S100000x128_1_0_0_1_n_n.rhsIdx (ix2 r c) ((contrEquiv1 dot_S100000x128_S128x128_S100000x128_1_0_0_1_n_n 128 rfl rfl).symm k) = ix2 k c := funext fun a => Fin.ext (by
    match a with
    | ⟨0, _⟩ => exact (rhs_main_v20_0 _ _).trans hk
    | ⟨1, _⟩ => exact rhs_main_v20_1 _ _)
  rw [el, er]

/-- The 128-feature contraction into 64 output features. -/
theorem dot64_apply (l : FVec Ideal S100000x128 .f32) (m : FVec Ideal S128x64 .f32) (r : Fin 100000) (c : Fin 64) :
    Host.dotGeneral dot_S100000x128_S128x64_S100000x64_1_0_0_1_n_n none l m (ix2 r c)
      = ∑ k : Fin 128, l (ix2 r k) * m (ix2 k c) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 r c) ((contrEquiv1 dot_S100000x128_S128x64_S100000x64_1_0_0_1_n_n 128 rfl rfl).symm k) = ix2 r k := funext fun a => Fin.ext (by
    match a with
    | ⟨0, _⟩ => exact lhs_main_v48_0 _ _
    | ⟨1, _⟩ => exact (lhs_main_v48_1 _ _).trans hk)
  have er : dot_S100000x128_S128x64_S100000x64_1_0_0_1_n_n.rhsIdx (ix2 r c) ((contrEquiv1 dot_S100000x128_S128x64_S100000x64_1_0_0_1_n_n 128 rfl rfl).symm k) = ix2 k c := funext fun a => Fin.ext (by
    match a with
    | ⟨0, _⟩ => exact (rhs_main_v48_0 _ _).trans hk
    | ⟨1, _⟩ => exact rhs_main_v48_1 _ _)
  rw [el, er]

/-- The self term of the hidden layer: `Σₖ h[r,k] · W[c,k]`. -/
theorem self128_apply (h : FVec Ideal S100000x128 .f32) (w : FVec Ideal S128x128 .f32) (r : Fin 100000) (c : Fin 128) :
    Host.dotGeneral dot_S100000x128_S128x128_S100000x128_1_0_0_1_n_n none h
        (transpose S128x128 [1, 0] w transposes_S128x128_S128x128_1_0) (ix2 r c)
      = ∑ k : Fin 128, h (ix2 r k) * w (ix2 c k) :=
  (dot128_apply h _ r c).trans (Finset.sum_congr rfl fun k _ => congrArg (h (ix2 r k) * ·) (tr128_apply w k c))

/-- The mean-neighbour term of the hidden layer: `Σₖ (a[r,k] / d[r]) · W[c,k]`. -/
theorem mean128_apply (a : FVec Ideal S100000x128 .f32) (d : FVec Ideal S100000 .f32) (w : FVec Ideal S128x128 .f32)
    (r : Fin 100000) (c : Fin 128) :
    Host.dotGeneral dot_S100000x128_S128x128_S100000x128_1_0_0_1_n_n none
        (Host.divf a (broadcastInDim S100000x128 ![0, 1] bcast_S100000x1_S100000x128_0_1
          (broadcastInDim S100000x1 ![0] bcast_S100000_S100000x1_0 d)))
        (transpose S128x128 [1, 0] w transposes_S128x128_S128x128_1_0) (ix2 r c)
      = ∑ k : Fin 128, Ideal.div (a (ix2 r k)) (d (ix1 r)) * w (ix2 c k) :=
  (self128_apply _ w r c).trans (Finset.sum_congr rfl fun k _ =>
    congrArg (fun t => Ideal.div (a (ix2 r k)) t * w (ix2 c k)) (row_apply d r k))

/-- The self term of the output layer. -/
theorem self64_apply (h : FVec Ideal S100000x128 .f32) (w : FVec Ideal S64x128 .f32) (r : Fin 100000) (c : Fin 64) :
    Host.dotGeneral dot_S100000x128_S128x64_S100000x64_1_0_0_1_n_n none h
        (transpose S128x64 [1, 0] w transposes_S64x128_S128x64_1_0) (ix2 r c)
      = ∑ k : Fin 128, h (ix2 r k) * w (ix2 c k) :=
  (dot64_apply h _ r c).trans (Finset.sum_congr rfl fun k _ => congrArg (h (ix2 r k) * ·) (tr64_apply w k c))

/-- The mean-neighbour term of the output layer. -/
theorem mean64_apply (a : FVec Ideal S100000x128 .f32) (d : FVec Ideal S100000 .f32) (w : FVec Ideal S64x128 .f32)
    (r : Fin 100000) (c : Fin 64) :
    Host.dotGeneral dot_S100000x128_S128x64_S100000x64_1_0_0_1_n_n none
        (Host.divf a (broadcastInDim S100000x128 ![0, 1] bcast_S100000x1_S100000x128_0_1
          (broadcastInDim S100000x1 ![0] bcast_S100000_S100000x1_0 d)))
        (transpose S128x64 [1, 0] w transposes_S64x128_S128x64_1_0) (ix2 r c)
      = ∑ k : Fin 128, Ideal.div (a (ix2 r k)) (d (ix1 r)) * w (ix2 c k) :=
  (self64_apply _ w r c).trans (Finset.sum_congr rfl fun k _ =>
    congrArg (fun t => Ideal.div (a (ix2 r k)) t * w (ix2 c k)) (row_apply d r k))

/-! ## The two layers as whole arrays -/

/-- The reference's first layer, over arbitrary operand arrays, is `hidden`. -/
theorem hidden_eq (x a : FVec Ideal S100000x128 .f32) (d : FVec Ideal S100000 .f32) (ws wn : FVec Ideal S128x128 .f32)
    (b : FVec Ideal S128 .f32) :
    maximumf (addf (addf
        (Host.dotGeneral dot_S100000x128_S128x128_S100000x128_1_0_0_1_n_n none x
          (transpose S128x128 [1, 0] ws transposes_S128x128_S128x128_1_0))
        (Host.dotGeneral dot_S100000x128_S128x128_S100000x128_1_0_0_1_n_n none
          (Host.divf a (broadcastInDim S100000x128 ![0, 1] bcast_S100000x1_S100000x128_0_1
            (broadcastInDim S100000x1 ![0] bcast_S100000_S100000x1_0 d)))
          (transpose S128x128 [1, 0] wn transposes_S128x128_S128x128_1_0)))
        (broadcastInDim S100000x128 ![0, 1] bcast_S1x128_S100000x128_0_1
          (broadcastInDim S1x128 ![1] bcast_S128_S1x128_1 b)))
      (broadcastInDim S100000x128 ![] bcast_S_S100000x128 (constant S_ .f32 0x00000000#32))
      = Cert.Sage.hidden x a d ws wn b := by
  funext idx
  obtain ⟨r, c, rfl⟩ : ∃ r c, idx = ix2 r c := ⟨idx 0, idx 1, eq_ix2 idx⟩
  rw [maximumf_apply, addf_apply, addf_apply, self128_apply, mean128_apply, bias128_apply, zero_apply]
  rfl

/-- The reference's second layer, over arbitrary operand arrays, is `output`. -/
theorem output_eq (h a : FVec Ideal S100000x128 .f32) (d : FVec Ideal S100000 .f32) (ws wn : FVec Ideal S64x128 .f32)
    (b : FVec Ideal S64 .f32) :
    addf (addf
        (Host.dotGeneral dot_S100000x128_S128x64_S100000x64_1_0_0_1_n_n none h
          (transpose S128x64 [1, 0] ws transposes_S64x128_S128x64_1_0))
        (Host.dotGeneral dot_S100000x128_S128x64_S100000x64_1_0_0_1_n_n none
          (Host.divf a (broadcastInDim S100000x128 ![0, 1] bcast_S100000x1_S100000x128_0_1
            (broadcastInDim S100000x1 ![0] bcast_S100000_S100000x1_0 d)))
          (transpose S128x64 [1, 0] wn transposes_S64x128_S128x64_1_0)))
      (broadcastInDim S100000x64 ![0, 1] bcast_S1x64_S100000x64_0_1
        (broadcastInDim S1x64 ![1] bcast_S64_S1x64_1 b))
      = Cert.Sage.output h a d ws wn b := by
  funext idx
  obtain ⟨r, c, rfl⟩ : ∃ r c, idx = ix2 r c := ⟨idx 0, idx 1, eq_ix2 idx⟩
  rw [addf_apply, addf_apply, self64_apply, mean64_apply, bias64_apply]
  rfl

/-! ## The reference's result -/

/-- The reference's composition of its nine arguments is the network. -/
theorem val_eq_net (x0 : FVec Ideal S100000x128 .f32) (x1 x2 : IVec S800000 32) (x3 x4 : FVec Ideal S128x128 .f32)
    (x5 : FVec Ideal S128 .f32) (x6 x7 : FVec Ideal S64x128 .f32) (x8 : FVec Ideal S64 .f32) :
    val_main_v54 (F := Ideal) x0 x1 x2 x3 x4 x5 x6 x7 x8 = Cert.Sage.net x0 x1 x2 x3 x4 x5 x6 x7 x8 := by
  have h1 : val_main_v27 (F := Ideal) x0 x1 x2 x3 x4 x5
      = Cert.Sage.hidden x0 (Cert.Sage.agg x0 x1 x2) (Cert.Sage.deg x2) x3 x4 x5 :=
    hidden_eq x0 (Cert.Sage.agg x0 x1 x2) (Cert.Sage.deg x2) x3 x4 x5
  have h2 : val_main_v54 (F := Ideal) x0 x1 x2 x3 x4 x5 x6 x7 x8
      = Cert.Sage.output (val_main_v27 (F := Ideal) x0 x1 x2 x3 x4 x5)
          (Cert.Sage.agg (val_main_v27 (F := Ideal) x0 x1 x2 x3 x4 x5) x1 x2) (Cert.Sage.deg x2) x6 x7 x8 :=
    output_eq _ _ _ x6 x7 x8
  exact h2.trans (congrArg (fun h => Cert.Sage.output h (Cert.Sage.agg h x1 x2) (Cert.Sage.deg x2) x6 x7 x8) h1)

/-- The reference program's result is the network of its arguments. -/
theorem res_eq (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v54 (F := Ideal) m c
      = Cert.Sage.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) :=
  (val_main_v54_eq m c).trans (val_eq_net _ _ _ _ _ _ _ _ _)

end Cert.Sage.Ref

end
-- ==== Proof.lean ====
/-
  Two GraphSAGE layers with mean aggregation: a kernel program (two pallas_calls, each fusing the degree
  normalisation, the two matrix products, the bias and — in the first — the clipping at zero, around host gathers and
  scatter-sums over the edges) against the plain jnp reference, equal on the extended reals.

  Both programs compute, for every node `i` and output feature `j` of a layer,
      Σₖ h[i,k]·Wself[j,k]  +  Σₖ (agg[i,k] / deg[i])·Wneigh[j,k]  +  b[j]
  with `agg` the sum of the source rows over the edges into `i` and `deg` the number of those edges, at least one; the
  first layer is clipped below at zero and feeds the second. The two sides differ only in how the sums are laid out:
  the kernel works on blocks of 5000 nodes against weights transposed on the host, rounds its matrix operands to a
  narrower float format (the identity on extended reals) and gathers from a narrowed copy of the features; the
  reference contracts whole arrays. No algebraic law beyond re-indexing the finite sums is needed, so the
  precondition (finite inputs) is never opened.

  The kernel's value: the run with the result buffer named (KernelRun), each call's result array as one function
  of the arrays it is entered with (Region0, Region1, over the stored element of Payload), the host operations
  around the calls (HostGlue, Layout) and their composition (KernelValue). The reference's value: its run's term is
  the same network (RefValue). The frames are the programs' frame runs; the idealization rewrote nothing.
-/
import proofs.«109266_j25598005084435_2_alg».proof.Defs
import proofs.«109266_j25598005084435_2_alg».proof.Proof.Gen.Kernel
import proofs.«109266_j25598005084435_2_alg».proof.Proof.Gen.Kernel.Skeleton
import proofs.«109266_j25598005084435_2_alg».proof.Proof.Gen.Kernel.Launch
import proofs.«109266_j25598005084435_2_alg».proof.Proof.Gen.Kernel.Points
import proofs.«109266_j25598005084435_2_alg».proof.Proof.Gen.Kernel.Frame
import proofs.«109266_j25598005084435_2_alg».proof.Proof.Gen.KernelIdeal
import proofs.«109266_j25598005084435_2_alg».proof.Proof.Gen.KernelIdeal.Skeleton
import proofs.«109266_j25598005084435_2_alg».proof.Proof.Gen.KernelIdeal.Launch
import proofs.«109266_j25598005084435_2_alg».proof.Proof.Gen.KernelIdeal.Points
import proofs.«109266_j25598005084435_2_alg».proof.Proof.Gen.KernelIdeal.Frame
import proofs.«109266_j25598005084435_2_alg».proof.Proof.Gen.ReferenceIdeal
import proofs.«109266_j25598005084435_2_alg».proof.Proof.Gen.Pre_finite_inputs
import proofs.«109266_j25598005084435_2_alg».proof.Proof.Gen.ReferenceIdeal.Run
import proofs.«109266_j25598005084435_2_alg».proof.Proof.Gen.ReferenceIdeal.Read
import proofs.«109266_j25598005084435_2_alg».proof.Proof.KernelValue
import proofs.«109266_j25598005084435_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the nine arguments both programs end with the result array at the network of the
    arguments: the kernel by its run read through the two calls, the reference by its run's composed term. -/
theorem algebraic : Cert.algebraic_KernelIdeal_ReferenceIdeal := by
  intro m ρ m' ρ' _ hagree
  refine ⟨_, Cert.Sage.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.Sage.Ref.res_eq m' c]
  obtain ⟨a0, a1, a2, a3, a4, a5, a6, a7, a8⟩ := hagree c
  rw [a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
